-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1 : Shape := ⟨2, ![4096, 1]⟩
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4096 .f32) (main_arg8 : FVec F S1024x1024 .f32) (main_arg9 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096x512 .f32) (main_arg5 : FVec F S4096x1024 .f32) (main_arg6 : FVec F S4096 .f32) (main_arg7 : FVec F S4096 .f32) (main_arg8 : FVec F S1024x1024 .f32) (main_arg9 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S4096x512 .f32) (main_arg1 : FVec F S4096x1 .f32) (main_arg2 : FVec F S4096x1024 .f32) (main_arg3 : FVec F S4096x1024 .f32) (main_arg4 : FVec F S4096x512 .f32) (main_arg5 : FVec F S4096x1024 .f32) (main_arg6 : FVec F S4096 .f32) (main_arg7 : FVec F S4096 .f32) (main_arg8 : FVec F S1024x1024 .f32) (main_arg9 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S4096x512 : Shape := ⟨2, ![4096, 512]⟩
abbrev S4096x1 : Shape := ⟨2, ![4096, 1]⟩
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S512x4096 : Shape := ⟨2, ![512, 4096]⟩
abbrev S1024x4096 : Shape := ⟨2, ![1024, 4096]⟩
abbrev S1x4096 : Shape := ⟨2, ![1, 4096]⟩
abbrev S1x1024 : Shape := ⟨2, ![1, 1024]⟩
abbrev S256x512 : Shape := ⟨2, ![256, 512]⟩
abbrev S256x1024 : Shape := ⟨2, ![256, 1024]⟩
abbrev S256x1 : Shape := ⟨2, ![256, 1]⟩
abbrev S256x4096 : Shape := ⟨2, ![256, 4096]⟩

abbrev nBuf : Space → Nat
  | .hbm => 19
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x1, .f32⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S1024x1024, .f32⟩
  | .hbm, ⟨9, _⟩ => ⟨S1024, .f32⟩
  | .hbm, ⟨10, _⟩ => ⟨S512x4096, .f32⟩
  | .hbm, ⟨11, _⟩ => ⟨S512x4096, .bf16⟩
  | .hbm, ⟨12, _⟩ => ⟨S1024x4096, .f32⟩
  | .hbm, ⟨13, _⟩ => ⟨S1024x4096, .bf16⟩
  | .hbm, ⟨14, _⟩ => ⟨S1x4096, .f32⟩
  | .hbm, ⟨15, _⟩ => ⟨S1x4096, .f32⟩
  | .hbm, ⟨16, _⟩ => ⟨S1x1024, .f32⟩
  | .hbm, ⟨17, _⟩ => ⟨S4096x1024, .f32⟩
  | .hbm, ⟨18, _⟩ => ⟨S4096x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S512x4096, .bf16⟩
  | .local _ .vmem, ⟨9, _⟩ => ⟨S1024x4096, .bf16⟩
  | .local _ .vmem, ⟨10, _⟩ => ⟨S1x4096, .f32⟩
  | .local _ .vmem, ⟨11, _⟩ => ⟨S1x4096, .f32⟩
  | .local _ .vmem, ⟨12, _⟩ => ⟨S1024x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4096x512_S512x4096_1_0 : S4096x512.Transposes [1, 0] S512x4096
  bitsLt_bf16_f32 : FTy.bits .bf16 < FTy.bits .f32
  transposes_S4096x1024_S1024x4096_1_0 : S4096x1024.Transposes [1, 0] S1024x4096
  shapeCasts_S4096_S1x4096 : S4096.ShapeCasts S1x4096
  shapeCasts_S1024_S1x1024 : S1024.ShapeCasts S1x1024
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S256x1_S256x1_0_0 : ∀ a, (![0, 0] : Fin 2 → Nat) a + S256x1.size a ≤ S256x1.size a
  h_S256x1 : 0 < S256x1.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1_S256x1 : S256x1.ShapeCasts S256x1
  broadcasts_S256x1_S256x1024 : S256x1.Broadcasts S256x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x1024_S256x1024_1_0_0_1_n_n_wf : DotDims.WF S256x1024 S1024x1024 S256x1024 [1] [0] [0] [1] [] []
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S512x4096.size a
  hwx0_4 : ∀ i : grid0.Coords, EltTy.bits .bf16 = 32 ∨ (Rect.block (s := S512x4096) S512x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .f32 = 32 ∨ (Rect.block (s := S1024x1024) S1024x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S4096x1024.size a
  hwx0_10 : ∀ i : grid0.Coords, EltTy.bits .f32 = 32 ∨ (Rect.block (s := S4096x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S4096x1024.size a
  hwx0_11 : ∀ i : grid0.Coords, EltTy.bits .f32 = 32 ∨ (Rect.block (s := S4096x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7_0) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_1) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1 : Shape := ⟨2, ![4096, 1]⟩
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S512x4096 : Shape := ⟨2, ![512, 4096]⟩
abbrev S4096x4096 : Shape := ⟨2, ![4096, 4096]⟩
abbrev S1x4096 : Shape := ⟨2, ![1, 4096]⟩
abbrev S1024x4096 : Shape := ⟨2, ![1024, 4096]⟩
abbrev S_ : Shape := ⟨0, ![]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1, .f32⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S1024x1024, .f32⟩
  | .hbm, ⟨9, _⟩ => ⟨S1024, .f32⟩
  | .hbm, ⟨10, _⟩ => ⟨S512x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S1024x4096, .f32⟩
  | .hbm, ⟨16, _⟩ => ⟨S4096x4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .i1⟩
  | .hbm, ⟨28, _⟩ => ⟨S_, .f32⟩
  | .hbm, ⟨29, _⟩ => ⟨S4096x1, .f32⟩
  | .hbm, ⟨30, _⟩ => ⟨S4096x1, .i1⟩
  | .hbm, ⟨31, _⟩ => ⟨S_, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x512_S512x4096_S4096x4096_1_0_0_1_n_n_wf : DotDims.WF S4096x512 S512x4096 S4096x4096 [1] [0] [0] [1] [] []
  dot_S4096x1024_S1024x4096_S4096x4096_1_0_0_1_n_n_wf : DotDims.WF S4096x1024 S1024x4096 S4096x4096 [1] [0] [0] [1] [] []
  dot_S4096x1024_S1024x1024_S4096x1024_1_0_0_1_n_n_wf : DotDims.WF S4096x1024 S1024x1024 S4096x1024 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.Spec.lean ====
/-
  The time-aware LSTM cell, as ONE function of its ten argument arrays, entry by entry, on the extended reals.

  For a batch row `b` and a gate column `j` (four blocks of 1024 columns: input, forget, cell, output)
      pre b j = (Σₖ x[b,k]·W_ih[j,k] + Σₖ h[b,k]·W_hh[j,k]) + (b_ih[j] + b_hh[j]).
  The elapsed time `t[b]` enters through its reciprocal where it is not zero, `decay b = 1/t[b]` (else `0`); the
  short-term memory is `short b q = tanh(Σₖ c[b,k]·W_d[k,q] + b_d[q])`, and the cell state is adjusted to
      adj b q = (c[b,q] − short b q) + decay b · short b q.
  The new cell state and hidden state are
      cell b q = σ(pre b (1024+q)) · adj b q + σ(pre b q) · tanh(pre b (2048+q)),
      hid  b q = σ(pre b (3072+q)) · tanh(cell b q).
  Addition on the extended reals is commutative and associative (also at the infinities), so the pre-activation may be
  summed in either of the two groupings met below: `pre_regroup`.
-/
import Idealize.ShloMosaic.Lib.ValueIdx
import Idealize.ShloMosaic.Lib.IdealHost
import Idealize.ShloMosaic.PureOps.Ideal.Laws

noncomputable section

namespace TLstm

open Idealize.ShloMosaic Idealize.ShloMosaic.ValueIdx

/-- A matrix of extended reals with `a` rows and `b` columns. -/
abbrev Mat (a b : Nat) : Type := FVec Ideal (⟨2, ![a, b]⟩ : Shape) .f32
/-- A vector of extended reals of length `a`. -/
abbrev Row (a : Nat) : Type := FVec Ideal (⟨1, ![a]⟩ : Shape) .f32

/-- Column `o + q` of the four-gate axis: unit `q` of the gate block that starts at column `o`. -/
def gcol (o : Nat) (ho : o ≤ 3072) (q : Fin 1024) : Fin 4096 := ⟨o + q.val, by have := q.isLt; omega⟩

/-- The two words the programs spell: `0.0` and `1.0`. -/
abbrev zeroW : EReal := Ideal.ofBits .f32 0x00000000#32
abbrev oneW : EReal := Ideal.ofBits .f32 0x3F800000#32

variable (X : Mat 4096 512) (Tm : Mat 4096 1) (Hx Cx : Mat 4096 1024) (Wih : Mat 4096 512) (Whh : Mat 4096 1024)
  (Bih Bhh : Row 4096) (Wd : Mat 1024 1024) (Bd : Row 1024)

/-- The gates' pre-activation at row `b`, gate column `j`. -/
def pre (b j : Fin 4096) : EReal :=
  ((∑ k : Fin 512, X (ix2 b k) * Wih (ix2 j k)) + ∑ k : Fin 1024, Hx (ix2 b k) * Whh (ix2 j k)) + (Bih (ix1 j) + Bhh (ix1 j))

/-- The reciprocal of the elapsed time where it is not zero, zero where it is. -/
def decay (b : Fin 4096) : EReal :=
  Scalar.select (Ideal.cmp .une (Tm (ix2 b 0)) zeroW)
    (Ideal.div oneW (Scalar.select (Ideal.cmp .une (Tm (ix2 b 0)) zeroW) (Tm (ix2 b 0)) oneW)) zeroW

/-- The short-term memory: `tanh` of the cell state's row times the decomposition weights, plus its bias. -/
def short (b : Fin 4096) (q : Fin 1024) : EReal :=
  Ideal.tanh ((∑ k : Fin 1024, Cx (ix2 b k) * Wd (ix2 k q)) + Bd (ix1 q))

/-- The cell state with its short-term part discounted by the elapsed time. -/
def adj (b : Fin 4096) (q : Fin 1024) : EReal :=
  (Cx (ix2 b q) - short Cx Wd Bd b q) + decay Tm b * short Cx Wd Bd b q

/-- The new cell state. -/
def cell (b : Fin 4096) (q : Fin 1024) : EReal :=
  Ideal.logistic (pre X Hx Wih Whh Bih Bhh b (gcol 1024 (by omega) q)) * adj Tm Cx Wd Bd b q
    + Ideal.logistic (pre X Hx Wih Whh Bih Bhh b (gcol 0 (by omega) q)) * Ideal.tanh (pre X Hx Wih Whh Bih Bhh b (gcol 2048 (by omega) q))

/-- The new hidden state. -/
def hid (b : Fin 4096) (q : Fin 1024) : EReal :=
  Ideal.logistic (pre X Hx Wih Whh Bih Bhh b (gcol 3072 (by omega) q)) * Ideal.tanh (cell X Tm Hx Cx Wih Whh Bih Bhh Wd Bd b q)

/-- The two result arrays, index by index. -/
def cellArr : Mat 4096 1024 := fun i => cell X Tm Hx Cx Wih Whh Bih Bhh Wd Bd (i 0) (i 1)
def hidArr : Mat 4096 1024 := fun i => hid X Tm Hx Cx Wih Whh Bih Bhh Wd Bd (i 0) (i 1)

/-- The pre-activation summed bias by bias, `((A + bᵢ) + B) + bₕ`, is the one summed `(A + B) + (bᵢ + bₕ)`:
    addition of extended reals is commutative and associative. -/
theorem pre_regroup (A B bi bh : EReal) : A + bi + B + bh = A + B + (bi + bh) := by
  rw [add_right_comm A bi B, add_assoc]

/-- The logistic function spelt with the programs' word for one. -/
theorem logistic_oneW (x : EReal) : Ideal.div oneW (oneW + Ideal.exp (-x)) = Ideal.logistic x := by
  unfold oneW; rw [Ideal.ofBits_one_f32]; rfl

end TLstm

end
-- ==== Proof.RefCell.lean ====
/-
  The reference program's stages, read entry by entry at exact arithmetic, are the cell function.

  The reference forms all 4096 × 4096 gate pre-activations at once — the input product plus the input bias, plus the
  hidden product, plus the hidden bias, the weights transposed on the way — and slices the four gates out of them; it
  spells the logistic function as 1 / (1 + exp(−x)) and the guarded reciprocal of the elapsed time with two selects.
  Entry by entry these are the specification's `pre` (after regrouping the sum), `decay`, `short`, `adj`, `cell`, `hid`.
-/
import proofs.«180588_j7344394076758_2_alg».proof.Proof.Gen.ReferenceIdeal.Read
import proofs.«180588_j7344394076758_2_alg».proof.Proof.Spec

noncomputable section

namespace Cert.ReferenceIdeal.RefCell

open Cert.ReferenceIdeal Cert.ReferenceIdeal.Read Idealize.ShloMosaic Idealize.ShloMosaic.ValueIdx TLstm

/-- The contents of an f32 buffer of shape `s`, at exact arithmetic. -/
abbrev C (s : Shape) : Type := (⟨s, .f32⟩ : BufTy).Contents (Elt Ideal)

/-! ## Where each stage reads its operands -/

section Indices
variable (b j : Fin 4096) (q : Fin 1024)

theorem ih_l (k : Fin 512) : lidx_main_v1 (ix2 b j) k = ix2 b k :=
  funext fun a => match a with | ⟨0, _⟩ => rfl | ⟨1, _⟩ => rfl
theorem ih_r (k : Fin 512) : idx_main_v0 (ridx_main_v1 (ix2 b j) k) = ix2 j k :=
  funext fun a => match a with | ⟨0, _⟩ => rfl | ⟨1, _⟩ => rfl
theorem hh_l (k : Fin 1024) : lidx_main_v6 (ix2 b j) k = ix2 b k :=
  funext fun a => match a with | ⟨0, _⟩ => rfl | ⟨1, _⟩ => rfl
theorem hh_r (k : Fin 1024) : idx_main_v5 (ridx_main_v6 (ix2 b j) k) = ix2 j k :=
  funext fun a => match a with | ⟨0, _⟩ => rfl | ⟨1, _⟩ => rfl
theorem bi_i : idx_main_v2 (idx_main_v3 (ix2 b j)) = ix1 j :=
  funext fun a => match a with | ⟨0, _⟩ => rfl
theorem bh_i : idx_main_v8 (idx_main_v9 (ix2 b j)) = ix1 j :=
  funext fun a => match a with | ⟨0, _⟩ => rfl

end Indices

/-! ## The gates' pre-activation -/

/-- The reference's pre-activation at (b, j) is `pre`: the same two products and two biases, regrouped. -/
theorem pre_ref (x0 x4 : C S4096x512) (x2 x5 : C S4096x1024) (x6 x7 : C S4096) (b j : Fin 4096) :
    val_main_v10 (F := Ideal) x0 x2 x4 x5 x6 x7 (ix2 b j) = pre x0 x2 x4 x5 x6 x7 b j := by
  simp only [val_main_v10_apply, val_main_v7_apply, val_main_v4_apply, val_main_v1_apply, val_main_v0_apply,
    val_main_v3_apply, val_main_v2_apply, val_main_v6_apply, val_main_v5_apply, val_main_v9_apply, val_main_v8_apply,
    Ideal.addf_def, ih_l, ih_r, hh_l, hh_r, bi_i, bh_i]
  exact pre_regroup _ _ _ _

/-! ## The elapsed time's guarded reciprocal -/

/-- The reference's two selects around the division, at row `b`, are `decay`. -/
theorem decay_ref (x1 : C S4096x1) (b : Fin 4096) :
    val_main_v22 (F := Ideal) x1 (ix2 b 0) = decay x1 b := by
  simp only [val_main_v22_apply, val_main_v16_apply, val_main_v15_apply, val_main_cst_apply, val_main_v21_apply,
    val_main_v20_apply, val_main_cst_2_apply, val_main_v19_apply, val_main_v18_apply, val_main_v17_apply,
    val_main_cst_0_apply, val_main_call0_v1_apply, val_main_call0_v0_apply, val_main_cst_1_apply,
    val_main_call1_v1_apply, val_main_call1_v0_apply, val_main_cst_3_apply,
    Ideal.cmpf_def, Ideal.ofBits_def, Ideal.hostDivf_def]
  rfl

/-! ## The adjusted cell state -/

section Indices2
variable (b : Fin 4096) (q : Fin 1024)

theorem dec_l (k : Fin 1024) : lidx_main_v24 (ix2 b q) k = ix2 b k :=
  funext fun a => match a with | ⟨0, _⟩ => rfl | ⟨1, _⟩ => rfl
theorem dec_r (k : Fin 1024) : ridx_main_v24 (ix2 b q) k = ix2 k q :=
  funext fun a => match a with | ⟨0, _⟩ => rfl | ⟨1, _⟩ => rfl
theorem bd_i : idx_main_v25 (idx_main_v26 (ix2 b q)) = ix1 q :=
  funext fun a => match a with | ⟨0, _⟩ => rfl
theorem time_i : idx_main_v23 (ix2 b q) = ix2 b 0 :=
  funext fun a => match a with | ⟨0, _⟩ => rfl | ⟨1, _⟩ => rfl
theorem gate0_i : idx_main_v11 (ix2 b q) = ix2 b (gcol 0 (by omega) q) :=
  funext fun a => match a with | ⟨0, _⟩ => rfl | ⟨1, _⟩ => Fin.ext (by show q.val = 0 + q.val; omega)
theorem gate1_i : idx_main_v12 (ix2 b q) = ix2 b (gcol 1024 (by omega) q) :=
  funext fun a => match a with | ⟨0, _⟩ => rfl | ⟨1, _⟩ => rfl
theorem gate2_i : idx_main_v13 (ix2 b q) = ix2 b (gcol 2048 (by omega) q) :=
  funext fun a => match a with | ⟨0, _⟩ => rfl | ⟨1, _⟩ => rfl
theorem gate3_i : idx_main_v14 (ix2 b q) = ix2 b (gcol 3072 (by omega) q) :=
  funext fun a => match a with | ⟨0, _⟩ => rfl | ⟨1, _⟩ => rfl

end Indices2

/-- The reference's adjusted cell state at (b, q) is `adj`. -/
theorem adj_ref (x1 : C S4096x1) (x3 : C S4096x1024) (x8 : C S1024x1024) (x9 : C S1024) (b : Fin 4096) (q : Fin 1024) :
    val_main_v31 (F := Ideal) x1 x3 x8 x9 (ix2 b q) = adj x1 x3 x8 x9 b q := by
  simp only [val_main_v31_apply, val_main_v29_apply, val_main_v30_apply, val_main_v28_apply, val_main_v27_apply,
    val_main_v24_apply, val_main_v26_apply, val_main_v25_apply, val_main_v23_apply,
    Ideal.addf_def, Ideal.subf_def, Ideal.mulf_def, Ideal.hostUnary_tanh_def,
    dec_l, dec_r, bd_i, time_i, decay_ref]
  rfl

/-! ## The two results -/

/-- The reference's new cell state at (b, q) is `cell`. -/
theorem cell_ref (x0 : C S4096x512) (x1 : C S4096x1) (x2 x3 : C S4096x1024) (x4 : C S4096x512) (x5 : C S4096x1024)
    (x6 x7 : C S4096) (x8 : C S1024x1024) (x9 : C S1024) (b : Fin 4096) (q : Fin 1024) :
    val_main_v53 (F := Ideal) x0 x1 x2 x3 x4 x5 x6 x7 x8 x9 (ix2 b q) = cell x0 x1 x2 x3 x4 x5 x6 x7 x8 x9 b q := by
  simp only [val_main_v53_apply, val_main_v51_apply, val_main_v52_apply, val_main_v43_apply, val_main_v42_apply,
    val_main_cst_7_apply, val_main_v41_apply, val_main_v40_apply, val_main_cst_6_apply, val_main_v39_apply,
    val_main_v38_apply, val_main_v12_apply, val_main_v37_apply, val_main_v36_apply, val_main_cst_5_apply,
    val_main_v35_apply, val_main_v34_apply, val_main_cst_4_apply, val_main_v33_apply, val_main_v32_apply,
    val_main_v11_apply, val_main_v44_apply, val_main_v13_apply,
    Ideal.addf_def, Ideal.mulf_def, Ideal.hostDivf_def, Ideal.hostUnary_exp_def, Ideal.hostUnary_tanh_def,
    Ideal.hostNegf_def, Ideal.negf_def, Ideal.ofBits_def,
    gate0_i, gate1_i, gate2_i, pre_ref, adj_ref, logistic_oneW]
  rfl

/-- The reference's new hidden state at (b, q) is `hid`. -/
theorem hid_ref (x0 : C S4096x512) (x1 : C S4096x1) (x2 x3 : C S4096x1024) (x4 : C S4096x512) (x5 : C S4096x1024)
    (x6 x7 : C S4096) (x8 : C S1024x1024) (x9 : C S1024) (b : Fin 4096) (q : Fin 1024) :
    val_main_v55 (F := Ideal) x0 x1 x2 x3 x4 x5 x6 x7 x8 x9 (ix2 b q) = hid x0 x1 x2 x3 x4 x5 x6 x7 x8 x9 b q := by
  simp only [val_main_v55_apply, val_main_v50_apply, val_main_v49_apply, val_main_cst_9_apply, val_main_v48_apply,
    val_main_v47_apply, val_main_cst_8_apply, val_main_v46_apply, val_main_v45_apply, val_main_v14_apply,
    val_main_v54_apply,
    Ideal.addf_def, Ideal.mulf_def, Ideal.hostDivf_def, Ideal.hostUnary_exp_def, Ideal.hostUnary_tanh_def,
    Ideal.hostNegf_def, Ideal.negf_def, Ideal.ofBits_def,
    gate3_i, pre_ref, cell_ref, logistic_oneW]
  rfl

/-- The reference's two result stages are the specification's two arrays. -/
theorem cell_stage (x0 : C S4096x512) (x1 : C S4096x1) (x2 x3 : C S4096x1024) (x4 : C S4096x512) (x5 : C S4096x1024)
    (x6 x7 : C S4096) (x8 : C S1024x1024) (x9 : C S1024) :
    val_main_v53 (F := Ideal) x0 x1 x2 x3 x4 x5 x6 x7 x8 x9 = cellArr x0 x1 x2 x3 x4 x5 x6 x7 x8 x9 := by
  funext i
  obtain ⟨b, q, rfl⟩ : ∃ (b : Fin 4096) (q : Fin 1024), i = ix2 b q := ⟨i 0, i 1, eq_ix2 i⟩
  exact cell_ref x0 x1 x2 x3 x4 x5 x6 x7 x8 x9 b q

theorem hid_stage (x0 : C S4096x512) (x1 : C S4096x1) (x2 x3 : C S4096x1024) (x4 : C S4096x512) (x5 : C S4096x1024)
    (x6 x7 : C S4096) (x8 : C S1024x1024) (x9 : C S1024) :
    val_main_v55 (F := Ideal) x0 x1 x2 x3 x4 x5 x6 x7 x8 x9 = hidArr x0 x1 x2 x3 x4 x5 x6 x7 x8 x9 := by
  funext i
  obtain ⟨b, q, rfl⟩ : ∃ (b : Fin 4096) (q : Fin 1024), i = ix2 b q := ⟨i 0, i 1, eq_ix2 i⟩
  exact hid_ref x0 x1 x2 x3 x4 x5 x6 x7 x8 x9 b q

end Cert.ReferenceIdeal.RefCell

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.CellBody.lean ====
/-
  What one grid point of the kernel computes, read entry by entry at exact arithmetic.

  At a grid point the body holds a block of 256 batch rows: the rows' inputs `x`, hidden states `h`, cell states `c`
  and elapsed times `t`, and, whole, the two gate weight matrices already transposed (`wi` : 512 × 4096, `wh` : 1024 × 4096),
  the two gate biases and the decomposition weights and bias as one-row matrices. Entry (p, j) of the gates' product is
  Σₖ x[p,k]·wi[k,j] + Σₖ h[p,k]·wh[k,j] (a change of float format is the identity here); the biases are added as a row
  broadcast down the block, the four gates are column slices at offsets 0, 1024, 2048, 3072, and the elapsed time's
  reciprocal is a column broadcast across the block.
-/
import proofs.«180588_j7344394076758_2_alg».proof.Proof.Gen.KernelIdeal.Skeleton
import proofs.«180588_j7344394076758_2_alg».proof.Proof.Spec
import proofs.«180588_j7344394076758_2_alg».proof.Proof.LibMatmulIdx
import Idealize.ShloMosaic.Lib.Pipeline.Value

noncomputable section

namespace Cert.KernelIdeal.Body

open Cert.KernelIdeal Cert.KernelIdeal.Gen Idealize.ShloMosaic Idealize.ShloMosaic.ValueIdx TLstm

/-! ## The three products: operand indices of a rows × contraction by contraction × columns product -/

section Dots

theorem dec_l0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dec_l1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem dec_r0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem dec_r1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

theorem ih_l0 (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem ih_l1 (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
theorem ih_r0 (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
theorem ih_r1 (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

theorem hh_l0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem hh_l1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem hh_r0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem hh_r1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

end Dots

/-! ## The gates' product at an entry -/

/-- Entry (p, j) of the two gate products' sum: the block's input row against column `j` of the transposed input weights,
    plus its hidden row against column `j` of the transposed hidden weights. -/
theorem gates_at (x : Vec Ideal S256x512 .f32) (h : Vec Ideal S256x1024 .f32) (wi : Vec Ideal S512x4096 .bf16)
    (wh : Vec Ideal S1024x4096 .bf16) (p : Fin 256) (j : Fin 4096) :
    k0_pay5 (F := Ideal) x h wi wh (ix2 p j)
      = (∑ k : Fin 512, x (ix2 p k) * wi (ix2 k j)) + ∑ k : Fin 1024, h (ix2 p k) * wh (ix2 k j) := by
  have e1 := LibMatmulIdx.matmul2_apply (M := 256) (K := 512) (N := 4096) (φ₁ := .bf16) (φ₂ := .bf16)
    dot_S256x512_S512x4096_S256x4096_1_0_0_1_n_n rfl rfl ih_l0 ih_l1 ih_r0 ih_r1 none
    (truncf .bf16 x bitsLt_bf16_f32) wi (ix2 p j)
  have e2 := LibMatmulIdx.matmul2_apply (M := 256) (K := 1024) (N := 4096) (φ₁ := .bf16) (φ₂ := .bf16)
    dot_S256x1024_S1024x4096_S256x4096_1_0_0_1_n_n rfl rfl hh_l0 hh_l1 hh_r0 hh_r1 none
    (truncf .bf16 h bitsLt_bf16_f32) wh (ix2 p j)
  unfold k0_pay5
  simp only [shapeCast_self]
  exact congrArg₂ (· + ·) e1 e2

/-! ## The biased pre-activation, the slices, and the two stored values -/

/-- A one-row matrix broadcast down the 256 rows, read at (p, j): the row's entry `j`. -/
theorem bias_rows_at (v : FVec Ideal S1x4096 .f32) (p : Fin 256) (j : Fin 4096) :
    broadcastTo S256x4096 v broadcasts_S1x4096_S256x4096 (ix2 p j) = v (ix2 0 j) :=
  broadcastTo_apply v broadcasts_S1x4096_S256x4096 (ix2 p j) (ix2 0 j) (fun a => match a with
    | ⟨0, _⟩ => by show 0 = (if (1 : Nat) = 1 then 0 else p.val); rw [if_pos rfl]
    | ⟨1, _⟩ => by show j.val = (if (4096 : Nat) = 1 then 0 else j.val); rw [if_neg (by decide)])

/-- The gates' product plus the two biases, at (p, j). -/
theorem pre_at (g : FVec Ideal S256x4096 .f32) (b1 b2 : Vec Ideal S1x4096 .f32) (p : Fin 256) (j : Fin 4096) :
    k0_pay1 (F := Ideal) g b1 b2 (ix2 p j) = g (ix2 p j) + (b1 (ix2 0 j) + b2 (ix2 0 j)) := by
  unfold k0_pay1
  simp only [shapeCast_self]
  exact congrArg (g (ix2 p j) + ·) (bias_rows_at (addf b1 b2) p j)

/-- A block of 1024 columns of the four-gate axis starting at column `o`, read at (p, q). -/
theorem slice_at (G : FVec Ideal S256x4096 .f32) (o : Nat) (ho : o ≤ 3072) (hs : S256x4096.Slices ![0, o] S256x1024)
    (p : Fin 256) (q : Fin 1024) :
    extractStridedSlice S256x1024 ![0, o] G hs (ix2 p q) = G (ix2 p (gcol o ho q)) :=
  extractStridedSlice_apply ![0, o] G hs (ix2 p q) (ix2 p (gcol o ho q)) (fun a => match a with
    | ⟨0, _⟩ => by show p.val = 0 + p.val; omega
    | ⟨1, _⟩ => rfl)

/-- The stored cell state at (p, q), over the adjusted cell state `a` and the gates' product `g`. -/
theorem cell_at (a : FVec Ideal S256x1024 .f32) (g : FVec Ideal S256x4096 .f32) (b1 b2 : Vec Ideal S1x4096 .f32)
    (p : Fin 256) (q : Fin 1024) :
    k0_pay2 (F := Ideal) a g b1 b2 (ix2 p q)
      = Ideal.logistic (k0_pay1 (F := Ideal) g b1 b2 (ix2 p (gcol 1024 (by omega) q))) * a (ix2 p q)
        + Ideal.logistic (k0_pay1 (F := Ideal) g b1 b2 (ix2 p (gcol 0 (by omega) q)))
          * Ideal.tanh (k0_pay1 (F := Ideal) g b1 b2 (ix2 p (gcol 2048 (by omega) q))) := by
  have e0 := slice_at (k0_pay1 (F := Ideal) g b1 b2) 0 (by omega) slices_S256x4096_o0_0_S256x1024 p q
  have e1 := slice_at (k0_pay1 (F := Ideal) g b1 b2) 1024 (by omega) slices_S256x4096_o0_1024_S256x1024 p q
  have e2 := slice_at (k0_pay1 (F := Ideal) g b1 b2) 2048 (by omega) slices_S256x4096_o0_2048_S256x1024 p q
  rw [← e0, ← e1, ← e2]
  rfl

/-- The stored hidden state at (p, q). -/
theorem hid_at (a : FVec Ideal S256x1024 .f32) (g : FVec Ideal S256x4096 .f32) (b1 b2 : Vec Ideal S1x4096 .f32)
    (p : Fin 256) (q : Fin 1024) :
    k0_pay3 (F := Ideal) a g b1 b2 (ix2 p q)
      = Ideal.logistic (k0_pay1 (F := Ideal) g b1 b2 (ix2 p (gcol 3072 (by omega) q)))
        * Ideal.tanh (k0_pay2 (F := Ideal) a g b1 b2 (ix2 p q)) := by
  have e3 := slice_at (k0_pay1 (F := Ideal) g b1 b2) 3072 (by omega) slices_S256x4096_o0_3072_S256x1024 p q
  rw [← e3]
  rfl

end Cert.KernelIdeal.Body

end
-- ==== Proof.CellAdjust.lean ====
/-
  The adjusted cell state of one block of 256 batch rows, read entry by entry at exact arithmetic.

  Entry (p, q) of the block's short-term memory is tanh(Σₖ c[p,k]·W_d[k,q] + b_d[q]): the decomposition product into a
  zero accumulator, plus the bias row broadcast down the block. The elapsed time is a column of the block; its guarded
  reciprocal (1/t where t ≠ 0, else 0) is computed on the column and broadcast across the 1024 units. The adjusted cell
  state is (c − short) + decay · short.
-/
import proofs.«180588_j7344394076758_2_alg».proof.Proof.CellBody

noncomputable section

namespace Cert.KernelIdeal.Body

open Cert.KernelIdeal Cert.KernelIdeal.Gen Idealize.ShloMosaic Idealize.ShloMosaic.ValueIdx TLstm

/-- The argument of the short-term memory's `tanh`, as the body computes it on the block. -/
def shortPre (cx : Vec Ideal S256x1024 .f32) (wd : Vec Ideal S1024x1024 .f32) (bd : Vec Ideal S1x1024 .f32) : FVec Ideal S256x1024 .f32 :=
  addf (matmul (φ₁ := .f32) (φ₂ := .f32) dot_S256x1024_S1024x1024_S256x1024_1_0_0_1_n_n (some .fp32) cx wd (constant (F := Ideal) S256x1024 .f32 0x00000000#32))
    (broadcastTo S256x1024 (shapeCast S1x1024 bd shapeCasts_S1x1024_S1x1024) broadcasts_S1x1024_S256x1024)

/-- The guarded reciprocal of the block's elapsed-time column, as the body computes it. -/
def decayCol (tt : Vec Ideal S256x1 .f32) : FVec Ideal S256x1 .f32 :=
  select (cmpf .one tt (broadcast S256x1 (Scalar.ofBits (F := Ideal) .f32 0x00000000#32)))
    (divf (broadcast S256x1 (Scalar.ofBits (F := Ideal) .f32 0x3F800000#32))
      (select (cmpf .one tt (broadcast S256x1 (Scalar.ofBits (F := Ideal) .f32 0x00000000#32))) tt
        (broadcast S256x1 (Scalar.ofBits (F := Ideal) .f32 0x3F800000#32))))
    (broadcast S256x1 (Scalar.ofBits (F := Ideal) .f32 0x00000000#32))

/-- The body's adjusted cell state is (c − tanh s) + decay · tanh s, entry by entry, with the decay column broadcast. -/
theorem adj_struct (cx : Vec Ideal S256x1024 .f32) (tt : Vec Ideal S256x1 .f32) (wd : Vec Ideal S1024x1024 .f32)
    (bd : Vec Ideal S1x1024 .f32) (i : S256x1024.Idx) :
    k0_pay4 (F := Ideal) cx tt wd bd i
      = (cx i - Ideal.tanh (shortPre cx wd bd i))
        + broadcastTo S256x1024 (shapeCast S256x1 (decayCol tt) shapeCasts_S256x1_S256x1) broadcasts_S256x1_S256x1024 i
          * Ideal.tanh (shortPre cx wd bd i) := rfl

/-- A one-row matrix broadcast down the 256 rows, read at (p, q). -/
theorem bias_row_at (v : FVec Ideal S1x1024 .f32) (p : Fin 256) (q : Fin 1024) :
    broadcastTo S256x1024 v broadcasts_S1x1024_S256x1024 (ix2 p q) = v (ix2 0 q) :=
  broadcastTo_apply v broadcasts_S1x1024_S256x1024 (ix2 p q) (ix2 0 q) (fun a => match a with
    | ⟨0, _⟩ => by show 0 = (if (1 : Nat) = 1 then 0 else p.val); rw [if_pos rfl]
    | ⟨1, _⟩ => by show q.val = (if (1024 : Nat) = 1 then 0 else q.val); rw [if_neg (by decide)])

/-- A one-column matrix broadcast across the 1024 units, read at (p, q). -/
theorem column_at (v : FVec Ideal S256x1 .f32) (p : Fin 256) (q : Fin 1024) :
    broadcastTo S256x1024 v broadcasts_S256x1_S256x1024 (ix2 p q) = v (ix2 p 0) :=
  broadcastTo_apply v broadcasts_S256x1_S256x1024 (ix2 p q) (ix2 p 0) (fun a => match a with
    | ⟨0, _⟩ => by show p.val = (if (256 : Nat) = 1 then 0 else p.val); rw [if_neg (by decide)]
    | ⟨1, _⟩ => by show 0 = (if (1 : Nat) = 1 then 0 else q.val); rw [if_pos rfl])

/-- The short-term memory's argument at (p, q): row `p` of the block's cell state against column `q` of the weights,
    plus the bias. -/
theorem shortPre_at (cx : Vec Ideal S256x1024 .f32) (wd : Vec Ideal S1024x1024 .f32) (bd : Vec Ideal S1x1024 .f32)
    (p : Fin 256) (q : Fin 1024) :
    shortPre cx wd bd (ix2 p q) = (∑ k : Fin 1024, cx (ix2 p k) * wd (ix2 k q)) + bd (ix2 0 q) := by
  have em := LibMatmulIdx.matmul2_apply (M := 256) (K := 1024) (N := 1024) (φ₁ := .f32) (φ₂ := .f32)
    dot_S256x1024_S1024x1024_S256x1024_1_0_0_1_n_n rfl rfl dec_l0 dec_l1 dec_r0 dec_r1 (some .fp32) cx wd (ix2 p q)
  unfold shortPre
  simp only [shapeCast_self]
  exact congrArg₂ (· + ·) em (bias_row_at bd p q)

/-- The guarded reciprocal of the elapsed time of the block's row `p`. -/
def decayAt (tt : Vec Ideal S256x1 .f32) (p : Fin 256) : EReal :=
  Scalar.select (Ideal.cmp .one (tt (ix2 p 0)) zeroW)
    (Ideal.div oneW (Scalar.select (Ideal.cmp .one (tt (ix2 p 0)) zeroW) (tt (ix2 p 0)) oneW)) zeroW

/-- The adjusted cell state at (p, q). -/
theorem adj_at (cx : Vec Ideal S256x1024 .f32) (tt : Vec Ideal S256x1 .f32) (wd : Vec Ideal S1024x1024 .f32)
    (bd : Vec Ideal S1x1024 .f32) (p : Fin 256) (q : Fin 1024) :
    k0_pay4 (F := Ideal) cx tt wd bd (ix2 p q)
      = (cx (ix2 p q) - Ideal.tanh ((∑ k : Fin 1024, cx (ix2 p k) * wd (ix2 k q)) + bd (ix2 0 q)))
        + decayAt tt p * Ideal.tanh ((∑ k : Fin 1024, cx (ix2 p k) * wd (ix2 k q)) + bd (ix2 0 q)) := by
  rw [adj_struct, shortPre_at, shapeCast_self, column_at]
  rfl

end Cert.KernelIdeal.Body

end
-- ==== Proof.CellBlock.lean ====
/-
  One grid point's two stored values are the cell function at the block's rows.

  Suppose the body's loaded values are pieces of the ten argument arrays: row `y 0` of the block's input, hidden, cell
  and elapsed-time values is row `b` of the arrays; the two gate weight matrices are the arguments transposed; the
  biases and the decomposition weights are the arguments themselves. Then at block entry `y` the stored cell state is
  `cell b (y 1)` and the stored hidden state is `hid b (y 1)`: every sum in the body runs over a whole row or column,
  so nothing else of the block enters.
-/
import proofs.«180588_j7344394076758_2_alg».proof.Proof.CellAdjust

noncomputable section

namespace Cert.KernelIdeal.Body

open Cert.KernelIdeal Cert.KernelIdeal.Gen Idealize.ShloMosaic Idealize.ShloMosaic.ValueIdx TLstm

theorem block_eq (X : Mat 4096 512) (Tm : Mat 4096 1) (Hx Cx : Mat 4096 1024) (Wih : Mat 4096 512) (Whh : Mat 4096 1024)
    (Bih Bhh : Row 4096) (Wd : Mat 1024 1024) (Bd : Row 1024)
    (x : Vec Ideal S256x512 .f32) (h cx : Vec Ideal S256x1024 .f32) (tt : Vec Ideal S256x1 .f32)
    (wi : Vec Ideal S512x4096 .bf16) (wh : Vec Ideal S1024x4096 .bf16) (b1 b2 : Vec Ideal S1x4096 .f32)
    (wd : Vec Ideal S1024x1024 .f32) (bd : Vec Ideal S1x1024 .f32)
    (y : S256x1024.Idx) (b : Fin 4096)
    (hx : ∀ k, x (ix2 (y 0) k) = X (ix2 b k)) (hh : ∀ k, h (ix2 (y 0) k) = Hx (ix2 b k))
    (hc : ∀ k, cx (ix2 (y 0) k) = Cx (ix2 b k)) (ht : tt (ix2 (y 0) 0) = Tm (ix2 b 0))
    (hwi : ∀ k j, wi (ix2 k j) = Wih (ix2 j k)) (hwh : ∀ k j, wh (ix2 k j) = Whh (ix2 j k))
    (hb1 : ∀ j, b1 (ix2 0 j) = Bih (ix1 j)) (hb2 : ∀ j, b2 (ix2 0 j) = Bhh (ix1 j))
    (hwd : ∀ k q, wd (ix2 k q) = Wd (ix2 k q)) (hbd : ∀ q, bd (ix2 0 q) = Bd (ix1 q)) :
    k0_pay2 (F := Ideal) (k0_pay4 (F := Ideal) cx tt wd bd) (k0_pay5 (F := Ideal) x h wi wh) b1 b2 y
        = cell X Tm Hx Cx Wih Whh Bih Bhh Wd Bd b (y 1)
    ∧ k0_pay3 (F := Ideal) (k0_pay4 (F := Ideal) cx tt wd bd) (k0_pay5 (F := Ideal) x h wi wh) b1 b2 y
        = hid X Tm Hx Cx Wih Whh Bih Bhh Wd Bd b (y 1) := by
  obtain ⟨p, q, rfl⟩ : ∃ (p : Fin 256) (q : Fin 1024), y = ix2 p q := ⟨y 0, y 1, eq_ix2 y⟩
  have hx' : ∀ k, x (ix2 p k) = X (ix2 b k) := hx
  have hh' : ∀ k, h (ix2 p k) = Hx (ix2 b k) := hh
  have hc' : ∀ k, cx (ix2 p k) = Cx (ix2 b k) := hc
  have ht' : tt (ix2 p 0) = Tm (ix2 b 0) := ht
  have hpre : ∀ j : Fin 4096, k0_pay1 (F := Ideal) (k0_pay5 (F := Ideal) x h wi wh) b1 b2 (ix2 p j)
      = pre X Hx Wih Whh Bih Bhh b j := fun j => by
    rw [pre_at, gates_at]
    unfold pre
    simp only [hx', hh', hwi, hwh, hb1, hb2]
  have hadj : k0_pay4 (F := Ideal) cx tt wd bd (ix2 p q) = adj Tm Cx Wd Bd b q := by
    rw [adj_at]
    unfold adj short decay decayAt
    simp only [hc', hwd, hbd, ht']
    rfl
  have hcell : k0_pay2 (F := Ideal) (k0_pay4 (F := Ideal) cx tt wd bd) (k0_pay5 (F := Ideal) x h wi wh) b1 b2 (ix2 p q)
      = cell X Tm Hx Cx Wih Whh Bih Bhh Wd Bd b q := by
    rw [cell_at, hpre, hpre, hpre, hadj]
    rfl
  refine ⟨hcell, ?_⟩
  rw [hid_at, hpre, hcell]
  rfl

end Cert.KernelIdeal.Body

end
-- ==== Proof.Blocks.lean ====
/-
  From blocks to arrays: what the kernel's run leaves in its two result arrays.

  The grid has 16 points; point `t` holds batch rows 256·t … 256·t + 255 of the input, hidden, cell and elapsed-time
  arrays and writes back the same rows of the two results, while the weights and biases are held whole at every point.
  Before the region the host transposes the two gate weight matrices (the change of float format is the identity at
  exact arithmetic) and views the three bias vectors as one-row matrices. So what point `t` writes back is block `t` of
  the cell function's two arrays; the 16 blocks cover the 4096 rows; hence the run ends with the two result arrays at
  the cell function of the arguments, and the arguments as they were.
-/
import proofs.«180588_j7344394076758_2_alg».proof.Proof.Gen.KernelIdeal.Frame
import proofs.«180588_j7344394076758_2_alg».proof.Proof.CellBlock
import Idealize.ShloMosaic.Lib.Pipeline.Value
import Idealize.ShloMosaic.Lib.StableHlo.Run

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.StableHlo Idealize.ShloMosaic.ValueIdx TLstm
open Idealize.ShloMosaic.Pipeline (Dat)

variable (m : (ℓ : Loc nD τ sig) → Buf (Elt Ideal) ℓ) (ρ : Dev nD → PrngReg)

/-! ## The arguments, and the two arrays the run should end with -/

/-- The ten argument arrays of core `c`, as launched. -/
abbrev A0 (c : Dev nD) : Mat 4096 512 := m ((c : Thread nD τ).loc main_arg0)
abbrev A1 (c : Dev nD) : Mat 4096 1 := m ((c : Thread nD τ).loc main_arg1)
abbrev A2 (c : Dev nD) : Mat 4096 1024 := m ((c : Thread nD τ).loc main_arg2)
abbrev A3 (c : Dev nD) : Mat 4096 1024 := m ((c : Thread nD τ).loc main_arg3)
abbrev A4 (c : Dev nD) : Mat 4096 512 := m ((c : Thread nD τ).loc main_arg4)
abbrev A5 (c : Dev nD) : Mat 4096 1024 := m ((c : Thread nD τ).loc main_arg5)
abbrev A6 (c : Dev nD) : Row 4096 := m ((c : Thread nD τ).loc main_arg6)
abbrev A7 (c : Dev nD) : Row 4096 := m ((c : Thread nD τ).loc main_arg7)
abbrev A8 (c : Dev nD) : Mat 1024 1024 := m ((c : Thread nD τ).loc main_arg8)
abbrev A9 (c : Dev nD) : Row 1024 := m ((c : Thread nD τ).loc main_arg9)

/-- The new hidden state and the new cell state of the launched arguments. -/
def hidOf (c : Dev nD) : Mat 4096 1024 :=
  hidArr (A0 m c) (A1 m c) (A2 m c) (A3 m c) (A4 m c) (A5 m c) (A6 m c) (A7 m c) (A8 m c) (A9 m c)
def cellOf (c : Dev nD) : Mat 4096 1024 :=
  cellArr (A0 m c) (A1 m c) (A2 m c) (A3 m c) (A4 m c) (A5 m c) (A6 m c) (A7 m c) (A8 m c) (A9 m c)

/-! ## What the host wrote before the region -/

theorem wih_T (c : Dev nD) : (V m c main_v1 : S512x4096.Idx → EReal)
    = truncf (F := Ideal) .bf16 (transpose S512x4096 [1, 0] (A4 m c) transposes_S4096x512_S512x4096_1_0) bitsLt_bf16_f32 := by
  dsimp only [Gen.V, Gen.hostOps0]; after_results; first | done | rfl

theorem whh_T (c : Dev nD) : (V m c main_v3 : S1024x4096.Idx → EReal)
    = truncf (F := Ideal) .bf16 (transpose S1024x4096 [1, 0] (A5 m c) transposes_S4096x1024_S1024x4096_1_0) bitsLt_bf16_f32 := by
  dsimp only [Gen.V, Gen.hostOps0]; after_results; first | done | rfl

theorem bih_row (c : Dev nD) : (V m c main_v4 : S1x4096.Idx → EReal) = shapeCast S1x4096 (A6 m c) shapeCasts_S4096_S1x4096 := by
  dsimp only [Gen.V, Gen.hostOps0]; after_results; first | done | rfl

theorem bhh_row (c : Dev nD) : (V m c main_v5 : S1x4096.Idx → EReal) = shapeCast S1x4096 (A7 m c) shapeCasts_S4096_S1x4096 := by
  dsimp only [Gen.V, Gen.hostOps0]; after_results; first | done | rfl

theorem bd_row (c : Dev nD) : (V m c main_v6 : S1x1024.Idx → EReal) = shapeCast S1x1024 (A9 m c) shapeCasts_S1024_S1x1024 := by
  dsimp only [Gen.V, Gen.hostOps0]; after_results; first | done | rfl

/-- The transposed input weights at (k, j) are the argument at (j, k). -/
theorem wih_T_at (c : Dev nD) (k : Fin 512) (j : Fin 4096) : (V m c main_v1 : S512x4096.Idx → EReal) (ix2 k j) = A4 m c (ix2 j k) := by
  rw [wih_T]
  exact transpose_apply [1, 0] (A4 m c) transposes_S4096x512_S512x4096_1_0 (ix2 k j) (ix2 j k) (fun b => match b with
    | ⟨0, _⟩ => rfl
    | ⟨1, _⟩ => rfl)

theorem whh_T_at (c : Dev nD) (k : Fin 1024) (j : Fin 4096) : (V m c main_v3 : S1024x4096.Idx → EReal) (ix2 k j) = A5 m c (ix2 j k) := by
  rw [whh_T]
  exact transpose_apply [1, 0] (A5 m c) transposes_S4096x1024_S1024x4096_1_0 (ix2 k j) (ix2 j k) (fun b => match b with
    | ⟨0, _⟩ => rfl
    | ⟨1, _⟩ => rfl)

/-- A vector viewed as a one-row matrix, at (0, j). -/
theorem bih_row_at (c : Dev nD) (j : Fin 4096) : (V m c main_v4 : S1x4096.Idx → EReal) (ix2 0 j) = A6 m c (ix1 j) := by
  rw [bih_row]
  exact shapeCast_apply (A6 m c) shapeCasts_S4096_S1x4096 (ix2 0 j) (ix1 j)
    (by rw [Shape.rowMajor_val_one, Shape.rowMajor_val_two]; show j.val = 0 * 4096 + j.val; omega)

theorem bhh_row_at (c : Dev nD) (j : Fin 4096) : (V m c main_v5 : S1x4096.Idx → EReal) (ix2 0 j) = A7 m c (ix1 j) := by
  rw [bhh_row]
  exact shapeCast_apply (A7 m c) shapeCasts_S4096_S1x4096 (ix2 0 j) (ix1 j)
    (by rw [Shape.rowMajor_val_one, Shape.rowMajor_val_two]; show j.val = 0 * 4096 + j.val; omega)

theorem bd_row_at (c : Dev nD) (q : Fin 1024) : (V m c main_v6 : S1x1024.Idx → EReal) (ix2 0 q) = A9 m c (ix1 q) := by
  rw [bd_row]
  exact shapeCast_apply (A9 m c) shapeCasts_S1024_S1x1024 (ix2 0 q) (ix1 q)
    (by rw [Shape.rowMajor_val_one, Shape.rowMajor_val_two]; show q.val = 0 * 1024 + q.val; omega)

/-! ## The index maps, decided over the 16 grid points -/

theorem hz : (![0, 0] : Fin 2 → Nat) = fun _ => 0 := funext fun a => by fin_cases a <;> rfl

/-- The row-blocked windows sit at block row `t`, block column 0. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
/-- The windows held whole sit at block (0, 0) at every point. -/
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-- The batch row that row `p` of point `t`'s block is. -/
def brow (t : Fin cfg0.N) (p : Fin 256) : Fin 4096 :=
  ⟨t.val * 256 + p.val, by have ht : t.val < grid0.N := t.isLt; rw [N_0] at ht; have := p.isLt; omega⟩

/-! ## Each window's block at a point, read off the arguments -/

theorem x_blk (c : Dev nD) (t : Fin cfg0.N) (p : Fin 256) (k : Fin 512) :
    iblk m c 0 t (ix2 p k) = A0 m c (ix2 (brow t p) k) := by
  obtain ⟨e0, e1⟩ := idx0 t
  show V m c main_arg0 (((cfg0.win 0).blk t).view.emb (ix2 p k)) = _
  rw [V_main_arg0]
  refine congrArg (A0 m c) (funext fun a => Fin.ext ?_)
  match a with
  | ⟨0, _⟩ => show win0_0.index t (0 : Fin 2) * 256 + 1 * p.val = t.val * 256 + p.val; omega
  | ⟨1, _⟩ => show win0_0.index t (1 : Fin 2) * 512 + 1 * k.val = k.val; omega

theorem h_blk (c : Dev nD) (t : Fin cfg0.N) (p : Fin 256) (k : Fin 1024) :
    iblk m c 1 t (ix2 p k) = A2 m c (ix2 (brow t p) k) := by
  obtain ⟨e0, e1⟩ := idx1 t
  show V m c main_arg2 (((cfg0.win 1).blk t).view.emb (ix2 p k)) = _
  rw [V_main_arg2]
  refine congrArg (A2 m c) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem c_blk (c : Dev nD) (t : Fin cfg0.N) (p : Fin 256) (k : Fin 1024) :
    iblk m c 2 t (ix2 p k) = A3 m c (ix2 (brow t p) k) := by
  obtain ⟨e0, e1⟩ := idx2 t
  show V m c main_arg3 (((cfg0.win 2).blk t).view.emb (ix2 p k)) = _
  rw [V_main_arg3]
  refine congrArg (A3 m c) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

theorem t_blk (c : Dev nD) (t : Fin cfg0.N) (p : Fin 256) :
    iblk m c 3 t (ix2 p 0) = A1 m c (ix2 (brow t p) 0) := by
  obtain ⟨e0, e1⟩ := idx3 t
  show V m c main_arg1 (((cfg0.win 3).blk t).view.emb (ix2 p 0)) = _
  rw [V_main_arg1]
  refine congrArg (A1 m c) (funext fun a => Fin.ext ?_)
  match a with
  | ⟨0, _⟩ => show win0_3.index t (0 : Fin 2) * 256 + 1 * p.val = t.val * 256 + p.val; omega
  | ⟨1, _⟩ => show win0_3.index t (1 : Fin 2) * 1 + 1 * 0 = 0; omega

theorem wi_blk (c : Dev nD) (t : Fin cfg0.N) (k : Fin 512) (j : Fin 4096) :
    iblk m c 4 t (ix2 k j) = A4 m c (ix2 j k) := by
  obtain ⟨e0, e1⟩ := idx4 t
  have he : ((cfg0.win 4).blk t).view.emb (ix2 k j) = ix2 k j := funext fun a => Fin.ext (by
    match a with
    | ⟨0, _⟩ => show win0_4.index t (0 : Fin 2) * 512 + 1 * k.val = k.val; omega
    | ⟨1, _⟩ => show win0_4.index t (1 : Fin 2) * 4096 + 1 * j.val = j.val; omega)
  show V m c main_v1 (((cfg0.win 4).blk t).view.emb (ix2 k j)) = _
  rw [he]
  exact wih_T_at m c k j

theorem wh_blk (c : Dev nD) (t : Fin cfg0.N) (k : Fin 1024) (j : Fin 4096) :
    iblk m c 5 t (ix2 k j) = A5 m c (ix2 j k) := by
  obtain ⟨e0, e1⟩ := idx5 t
  have he : ((cfg0.win 5).blk t).view.emb (ix2 k j) = ix2 k j := funext fun a => Fin.ext (by
    match a with
    | ⟨0, _⟩ => show win0_5.index t (0 : Fin 2) * 1024 + 1 * k.val = k.val; omega
    | ⟨1, _⟩ => show win0_5.index t (1 : Fin 2) * 4096 + 1 * j.val = j.val; omega)
  show V m c main_v3 (((cfg0.win 5).blk t).view.emb (ix2 k j)) = _
  rw [he]
  exact whh_T_at m c k j

theorem b1_blk (c : Dev nD) (t : Fin cfg0.N) (j : Fin 4096) : iblk m c 6 t (ix2 0 j) = A6 m c (ix1 j) := by
  obtain ⟨e0, e1⟩ := idx6 t
  have he : ((cfg0.win 6).blk t).view.emb (ix2 0 j) = ix2 0 j := funext fun a => Fin.ext (by
    match a with
    | ⟨0, _⟩ => show win0_6.index t (0 : Fin 2) * 1 + 1 * 0 = 0; omega
    | ⟨1, _⟩ => show win0_6.index t (1 : Fin 2) * 4096 + 1 * j.val = j.val; omega)
  show V m c main_v4 (((cfg0.win 6).blk t).view.emb (ix2 0 j)) = _
  rw [he]
  exact bih_row_at m c j

theorem b2_blk (c : Dev nD) (t : Fin cfg0.N) (j : Fin 4096) : iblk m c 7 t (ix2 0 j) = A7 m c (ix1 j) := by
  obtain ⟨e0, e1⟩ := idx7 t
  have he : ((cfg0.win 7).blk t).view.emb (ix2 0 j) = ix2 0 j := funext fun a => Fin.ext (by
    match a with
    | ⟨0, _⟩ => show win0_7.index t (0 : Fin 2) * 1 + 1 * 0 = 0; omega
    | ⟨1, _⟩ => show win0_7.index t (1 : Fin 2) * 4096 + 1 * j.val = j.val; omega)
  show V m c main_v5 (((cfg0.win 7).blk t).view.emb (ix2 0 j)) = _
  rw [he]
  exact bhh_row_at m c j

theorem wd_blk (c : Dev nD) (t : Fin cfg0.N) (k q : Fin 1024) : iblk m c 8 t (ix2 k q) = A8 m c (ix2 k q) := by
  obtain ⟨e0, e1⟩ := idx8 t
  show V m c main_arg8 (((cfg0.win 8).blk t).view.emb (ix2 k q)) = _
  rw [V_main_arg8]
  refine congrArg (A8 m c) (funext fun a => Fin.ext ?_)
  match a with
  | ⟨0, _⟩ => show win0_8.index t (0 : Fin 2) * 1024 + 1 * k.val = k.val; omega
  | ⟨1, _⟩ => show win0_8.index t (1 : Fin 2) * 1024 + 1 * q.val = q.val; omega

theorem bd_blk (c : Dev nD) (t : Fin cfg0.N) (q : Fin 1024) : iblk m c 9 t (ix2 0 q) = A9 m c (ix1 q) := by
  obtain ⟨e0, e1⟩ := idx9 t
  have he : ((cfg0.win 9).blk t).view.emb (ix2 0 q) = ix2 0 q := funext fun a => Fin.ext (by
    match a with
    | ⟨0, _⟩ => show win0_9.index t (0 : Fin 2) * 1 + 1 * 0 = 0; omega
    | ⟨1, _⟩ => show win0_9.index t (1 : Fin 2) * 1024 + 1 * q.val = q.val; omega)
  show V m c main_v6 (((cfg0.win 9).blk t).view.emb (ix2 0 q)) = _
  rw [he]
  exact bd_row_at m c q

/-! ## What a point writes back -/

/-- At block entry `y` of point `t` the body's two stored values are the cell function at batch row `brow t (y 0)`. -/
theorem point_eq (c : Dev nD) (t : Fin cfg0.N) (y : S256x1024.Idx) :
    k0_pay2 (F := Ideal) (k0_pay4 (F := Ideal) (iblk m c 2 t) (iblk m c 3 t) (iblk m c 8 t) (iblk m c 9 t))
        (k0_pay5 (F := Ideal) (iblk m c 0 t) (iblk m c 1 t) (iblk m c 4 t) (iblk m c 5 t)) (iblk m c 6 t) (iblk m c 7 t) y
        = cell (A0 m c) (A1 m c) (A2 m c) (A3 m c) (A4 m c) (A5 m c) (A6 m c) (A7 m c) (A8 m c) (A9 m c) (brow t (y 0)) (y 1)
    ∧ k0_pay3 (F := Ideal) (k0_pay4 (F := Ideal) (iblk m c 2 t) (iblk m c 3 t) (iblk m c 8 t) (iblk m c 9 t))
        (k0_pay5 (F := Ideal) (iblk m c 0 t) (iblk m c 1 t) (iblk m c 4 t) (iblk m c 5 t)) (iblk m c 6 t) (iblk m c 7 t) y
        = hid (A0 m c) (A1 m c) (A2 m c) (A3 m c) (A4 m c) (A5 m c) (A6 m c) (A7 m c) (A8 m c) (A9 m c) (brow t (y 0)) (y 1) :=
  block_eq (A0 m c) (A1 m c) (A2 m c) (A3 m c) (A4 m c) (A5 m c) (A6 m c) (A7 m c) (A8 m c) (A9 m c)
    (iblk m c 0 t) (iblk m c 1 t) (iblk m c 2 t) (iblk m c 3 t) (iblk m c 4 t) (iblk m c 5 t) (iblk m c 6 t) (iblk m c 7 t)
    (iblk m c 8 t) (iblk m c 9 t) y (brow t (y 0))
    (fun k => x_blk m c t (y 0) k) (fun k => h_blk m c t (y 0) k) (fun k => c_blk m c t (y 0) k) (t_blk m c t (y 0))
    (fun k j => wi_blk m c t k j) (fun k j => wh_blk m c t k j) (fun j => b1_blk m c t j) (fun j => b2_blk m c t j)
    (fun k q => wd_blk m c t k q) (fun q => bd_blk m c t q)

/-- WHAT POINT `t` WRITES BACK to the hidden-state result is block `t` of the cell function's hidden state. -/
theorem hid_flushed (c : Dev nD) (t : Fin cfg0.N) :
    (dats m 0 c).flushed 10 t = ((cfg0.win 10).blk t).view.read (Elt Ideal) (hidOf m c) := by
  show (cfg0.win 10).cut (grid0.coords t) ((dats m 0 c).after 10 t) = _
  rw [after0_10]
  unfold out0_10
  rw [View.canon_unit_zero hz]
  simp only [View.ld_unit_zero (S := S256x512) hz, View.ld_unit_zero (S := S256x1024) hz, View.ld_unit_zero (S := S256x1) hz,
    View.ld_unit_zero (S := S1024x1024) hz, View.ld_unit_zero (S := S1x1024) hz, View.ld_unit_zero (S := S512x4096) hz,
    View.ld_unit_zero (S := S1024x4096) hz, View.ld_unit_zero (S := S1x4096) hz]
  obtain ⟨e0, e1⟩ := idx10 t
  funext j
  refine (point_eq m c t j).2.trans ?_
  have r0 : brow t (j 0) = ((cfg0.win 10).blk t).view.emb j 0 := Fin.ext (by
    show t.val * 256 + (j 0).val = win0_10.index t (0 : Fin 2) * 256 + 1 * (j 0).val; omega)
  have r1 : j 1 = ((cfg0.win 10).blk t).view.emb j 1 := Fin.ext (by
    show (j 1).val = win0_10.index t (1 : Fin 2) * 1024 + 1 * (j 1).val; omega)
  exact congrArg₂ (hid (A0 m c) (A1 m c) (A2 m c) (A3 m c) (A4 m c) (A5 m c) (A6 m c) (A7 m c) (A8 m c) (A9 m c)) r0 r1

/-- WHAT POINT `t` WRITES BACK to the cell-state result is block `t` of the cell function's cell state. -/
theorem cell_flushed (c : Dev nD) (t : Fin cfg0.N) :
    (dats m 0 c).flushed 11 t = ((cfg0.win 11).blk t).view.read (Elt Ideal) (cellOf m c) := by
  show (cfg0.win 11).cut (grid0.coords t) ((dats m 0 c).after 11 t) = _
  rw [after0_11]
  unfold out0_11
  rw [View.canon_unit_zero hz]
  simp only [View.ld_unit_zero (S := S256x512) hz, View.ld_unit_zero (S := S256x1024) hz, View.ld_unit_zero (S := S256x1) hz,
    View.ld_unit_zero (S := S1024x1024) hz, View.ld_unit_zero (S := S1x1024) hz, View.ld_unit_zero (S := S512x4096) hz,
    View.ld_unit_zero (S := S1024x4096) hz, View.ld_unit_zero (S := S1x4096) hz]
  obtain ⟨e0, e1⟩ := idx11 t
  funext j
  refine (point_eq m c t j).1.trans ?_
  have r0 : brow t (j 0) = ((cfg0.win 11).blk t).view.emb j 0 := Fin.ext (by
    show t.val * 256 + (j 0).val = win0_11.index t (0 : Fin 2) * 256 + 1 * (j 0).val; omega)
  have r1 : j 1 = ((cfg0.win 11).blk t).view.emb j 1 := Fin.ext (by
    show (j 1).val = win0_11.index t (1 : Fin 2) * 1024 + 1 * (j 1).val; omega)
  exact congrArg₂ (cell (A0 m c) (A1 m c) (A2 m c) (A3 m c) (A4 m c) (A5 m c) (A6 m c) (A7 m c) (A8 m c) (A9 m c)) r0 r1

/-! ## The 16 blocks cover the 4096 rows -/

/-- An index of a result array is in point `t`'s block iff each coordinate is in the block's range on its axis. -/
theorem mem_blk10 (t : Fin cfg0.N) (i : S4096x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v7_0).slice (win0_10.rect t)).set ↔ _
  rw [View.set_slice_whole, Rect.mem_set_unit]
  exact Iff.rfl

theorem mem_blk11 (t : Fin cfg0.N) (i : S4096x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v7_1).slice (win0_11.rect t)).set ↔ _
  rw [View.set_slice_whole, Rect.mem_set_unit]
  exact Iff.rfl

/-- Row `r` is in the block of point `r / 256`. -/
theorem hid_cover (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  have hN : (i 0).val / 256 < grid0.N := by rw [N_0]; omega
  obtain ⟨e0, e1⟩ := idx10 ⟨(i 0).val / 256, hN⟩
  have e0' : win0_10.index ⟨(i 0).val / 256, hN⟩ (0 : Fin 2) = (i 0).val / 256 := e0
  refine ⟨⟨(i 0).val / 256, hN⟩, flush0_10 _, ?_⟩
  rw [mem_blk10]
  intro a
  match a with
  | ⟨0, _⟩ => show win0_10.index ⟨(i 0).val / 256, hN⟩ (0 : Fin 2) * 256 ≤ (i 0).val ∧ (i 0).val < win0_10.index ⟨(i 0).val / 256, hN⟩ (0 : Fin 2) * 256 + 256; omega
  | ⟨1, _⟩ => show win0_10.index ⟨(i 0).val / 256, hN⟩ (1 : Fin 2) * 1024 ≤ (i 1).val ∧ (i 1).val < win0_10.index ⟨(i 0).val / 256, hN⟩ (1 : Fin 2) * 1024 + 1024; omega

theorem cell_cover (i : S4096x1024.Idx) : ∃ t : Fin cfg0.N, (cfg0.win 11).flush t = true ∧ i ∈ ((cfg0.win 11).blk t).view.set := by
  have hi0 : (i 0).val < 4096 := (i 0).isLt
  have hi1 : (i 1).val < 1024 := (i 1).isLt
  have hN : (i 0).val / 256 < grid0.N := by rw [N_0]; omega
  obtain ⟨e0, e1⟩ := idx11 ⟨(i 0).val / 256, hN⟩
  have e0' : win0_11.index ⟨(i 0).val / 256, hN⟩ (0 : Fin 2) = (i 0).val / 256 := e0
  refine ⟨⟨(i 0).val / 256, hN⟩, flush0_11 _, ?_⟩
  rw [mem_blk11]
  intro a
  match a with
  | ⟨0, _⟩ => show win0_11.index ⟨(i 0).val / 256, hN⟩ (0 : Fin 2) * 256 ≤ (i 0).val ∧ (i 0).val < win0_11.index ⟨(i 0).val / 256, hN⟩ (0 : Fin 2) * 256 + 256; omega
  | ⟨1, _⟩ => show win0_11.index ⟨(i 0).val / 256, hN⟩ (1 : Fin 2) * 1024 ≤ (i 1).val ∧ (i 1).val < win0_11.index ⟨(i 0).val / 256, hN⟩ (1 : Fin 2) * 1024 + 1024; omega

/-! ## The two result arrays after the run, and the run -/

theorem hid_final (c : Dev nD) : (dats m 0 c).arrAt 10 cfg0.N = hidOf m c :=
  (dats m 0 c).arrAt_eq_of_cover 10 (hidOf m c) (fun t _ => hid_flushed m c t) (fun i => hid_cover i)

theorem cell_final (c : Dev nD) : (dats m 0 c).arrAt 11 cfg0.N = cellOf m c :=
  (dats m 0 c).arrAt_eq_of_cover 11 (cellOf m c) (fun t _ => cell_flushed m c t) (fun i => cell_cover i)

/-- Every weakly fair execution of the kernel's program ends with the two result arrays at the cell function of the
    launched arguments, and the arguments as launched. -/
theorem run : θ_run defs (onTc (τ := τ) (main (F := Ideal))) ⟨m, fun _ => 0, ρ⟩ fun r => ∀ c : Dev nD,
      r.2.mem ((c : Thread nD τ).loc main_v7_0) = hidOf m c
      ∧ r.2.mem ((c : Thread nD τ).loc main_v7_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (hid_final m c),
      ((h c).1 11).trans (cell_final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c)⟩)
    (run_main m ρ)

end Cert.KernelIdeal.Blocks

end
-- ==== Proof.lean ====
/-
  The certificate of a time-aware LSTM cell: one fused TensorCore kernel against its plain array reference.

  Both programs compute, for 4096 batch rows and 1024 hidden units, the gates' pre-activation
  `x·W_ihᵀ + h·W_hhᵀ + b_ih + b_hh` (four blocks of 1024 columns), the short-term memory `tanh(c·W_d + b_d)`, the cell
  state adjusted by the reciprocal of the elapsed time, `(c − s) + (1/t)·s` (`0` in place of `1/t` where `t = 0`), the new cell state
  `σ(f)·adj + σ(i)·tanh(g)` and the new hidden state `σ(o)·tanh(cell)` (Proof/Spec.lean: `TLstm.cell`, `TLstm.hid`).
  The kernel works on 16 blocks of 256 rows, with the gate weights transposed by the host beforehand, adds the two biases
  to each other first, and uses the TensorCore's logistic operation; the reference forms all pre-activations at once, adds
  the biases one after the other, and spells the logistic function as 1/(1 + exp(−x)). On the extended reals a change of float
  format is the identity, the logistic operation IS that quotient, and the two orders of adding the biases agree because
  addition is commutative and associative there (also at the infinities): no finiteness of the inputs is needed.
  The kernel's run (Proof/Blocks.lean, over Proof/CellBody.lean, CellAdjust.lean, CellBlock.lean) and the reference's stages
  (Proof/RefCell.lean) both end at the specification's two arrays of the same arguments.
-/
import proofs.«180588_j7344394076758_2_alg».proof.Defs
import proofs.«180588_j7344394076758_2_alg».proof.Proof.Gen.Kernel
import proofs.«180588_j7344394076758_2_alg».proof.Proof.Gen.Kernel.Skeleton
import proofs.«180588_j7344394076758_2_alg».proof.Proof.Gen.Kernel.Launch
import proofs.«180588_j7344394076758_2_alg».proof.Proof.Gen.Kernel.Points
import proofs.«180588_j7344394076758_2_alg».proof.Proof.Gen.Kernel.Frame
import proofs.«180588_j7344394076758_2_alg».proof.Proof.Gen.KernelIdeal
import proofs.«180588_j7344394076758_2_alg».proof.Proof.Gen.KernelIdeal.Skeleton
import proofs.«180588_j7344394076758_2_alg».proof.Proof.Gen.KernelIdeal.Launch
import proofs.«180588_j7344394076758_2_alg».proof.Proof.Gen.KernelIdeal.Points
import proofs.«180588_j7344394076758_2_alg».proof.Proof.Gen.KernelIdeal.Frame
import proofs.«180588_j7344394076758_2_alg».proof.Proof.Gen.ReferenceIdeal
import proofs.«180588_j7344394076758_2_alg».proof.Proof.Gen.Pre_finite_inputs
import proofs.«180588_j7344394076758_2_alg».proof.Proof.Gen.ReferenceIdeal.Run
import proofs.«180588_j7344394076758_2_alg».proof.Proof.Gen.ReferenceIdeal.Read
import proofs.«180588_j7344394076758_2_alg».proof.Proof.RefCell
import proofs.«180588_j7344394076758_2_alg».proof.Proof.Blocks
import Idealize.ShloMosaic.Adequacy
import Idealize.ShloMosaic.Init

noncomputable section

namespace Cert.Proof

open Idealize.ShloMosaic Idealize.ShloMosaic.TcCoe Idealize.SL.Sem

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at exact arithmetic: nothing was rewritten. -/
theorem preserves : Cert.preserves_Kernel_KernelIdeal := trivial

/-- From memories that agree on the ten arguments, the kernel's run ends with its two results at the cell function's
    hidden and cell states of its arguments, and the reference's run with its two at the same function of its own. -/
theorem algebraic : Cert.algebraic_KernelIdeal_ReferenceIdeal := by
  intro m ρ m' ρ' _ hagree
  refine ⟨fun c => Cert.KernelIdeal.Blocks.hidOf m c, fun c => Cert.KernelIdeal.Blocks.cellOf m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [Cert.ReferenceIdeal.Read.val_main_v55_eq, Cert.ReferenceIdeal.RefCell.hid_stage, h0, h1, h2, h3, h4, h5, h6, h7, h8, h9]
    rfl
  · obtain ⟨h0, h1, h2, h3, h4, h5, h6, h7, h8, h9⟩ := hagree c
    rw [Cert.ReferenceIdeal.Read.val_main_v53_eq, Cert.ReferenceIdeal.RefCell.cell_stage, h0, h1, h2, h3, h4, h5, h6, h7, h8, h9]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
